-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1024x128 .f32) (main_arg1 : FVec F S32x1024x1024 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x128 : Shape := ⟨3, ![32, 1024, 128]⟩
abbrev S32x1024x1024 : Shape := ⟨3, ![32, 1024, 1024]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x128 : Shape := ⟨2, ![1024, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S32x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  iota_S128x128_d0_w32 : S128x128.Iotas .tc 32 [0]
  iota_S128x128_d1_w32 : S128x128.Iotas .tc 32 [1]
  natLt_1_32 : 1 < 32
  slices_S1024x1024_o0_0_S128x128 : S1024x1024.Slices ![0, 0] S128x128
  reduces_S128x128_S128 : S128x128.Reduces [1] S128
  shapeCasts_S128_S128x1 : S128.ShapeCasts S128x1
  slices_S1024x128_o0_0_S128x128 : S1024x128.Slices ![0, 0] S128x128
  broadcasts_S128x1_S128x128 : S128x1.Broadcasts S128x128
  inb_S1x1024x128_S1x128x128_0_0_0 : ∀ a, (![0, 0, 0] : Fin 3 → Nat) a + S1x128x128.size a ≤ S1x1024x128.size a
  h_S1x128x128 : 0 < S1x128x128.numel
  shapeCasts_S1x128x128_S128x128 : S1x128x128.ShapeCasts S128x128
  shapeCasts_S128x128_S1x128x128 : S128x128.ShapeCasts S1x128x128
  slices_S1024x1024_o128_128_S128x128 : S1024x1024.Slices ![128, 128] S128x128
  slices_S1024x128_o128_0_S128x128 : S1024x128.Slices ![128, 0] S128x128
  inb_S1x1024x128_S1x128x128_0_128_0 : ∀ a, (![0, 128, 0] : Fin 3 → Nat) a + S1x128x128.size a ≤ S1x1024x128.size a
  slices_S1024x1024_o256_256_S128x128 : S1024x1024.Slices ![256, 256] S128x128
  slices_S1024x128_o256_0_S128x128 : S1024x128.Slices ![256, 0] S128x128
  inb_S1x1024x128_S1x128x128_0_256_0 : ∀ a, (![0, 256, 0] : Fin 3 → Nat) a + S1x128x128.size a ≤ S1x1024x128.size a
  slices_S1024x1024_o384_384_S128x128 : S1024x1024.Slices ![384, 384] S128x128
  slices_S1024x128_o384_0_S128x128 : S1024x128.Slices ![384, 0] S128x128
  inb_S1x1024x128_S1x128x128_0_384_0 : ∀ a, (![0, 384, 0] : Fin 3 → Nat) a + S1x128x128.size a ≤ S1x1024x128.size a
  slices_S1024x1024_o512_512_S128x128 : S1024x1024.Slices ![512, 512] S128x128
  slices_S1024x128_o512_0_S128x128 : S1024x128.Slices ![512, 0] S128x128
  inb_S1x1024x128_S1x128x128_0_512_0 : ∀ a, (![0, 512, 0] : Fin 3 → Nat) a + S1x128x128.size a ≤ S1x1024x128.size a
  slices_S1024x1024_o640_640_S128x128 : S1024x1024.Slices ![640, 640] S128x128
  slices_S1024x128_o640_0_S128x128 : S1024x128.Slices ![640, 0] S128x128
  inb_S1x1024x128_S1x128x128_0_640_0 : ∀ a, (![0, 640, 0] : Fin 3 → Nat) a + S1x128x128.size a ≤ S1x1024x128.size a
  slices_S1024x1024_o768_768_S128x128 : S1024x1024.Slices ![768, 768] S128x128
  slices_S1024x128_o768_0_S128x128 : S1024x128.Slices ![768, 0] S128x128
  inb_S1x1024x128_S1x128x128_0_768_0 : ∀ a, (![0, 768, 0] : Fin 3 → Nat) a + S1x128x128.size a ≤ S1x1024x128.size a
  slices_S1024x1024_o896_896_S128x128 : S1024x1024.Slices ![896, 896] S128x128
  slices_S1024x128_o896_0_S128x128 : S1024x128.Slices ![896, 0] S128x128
  inb_S1x1024x128_S1x128x128_0_896_0 : ∀ a, (![0, 896, 0] : Fin 3 → Nat) a + S1x128x128.size a ≤ S1x1024x128.size a
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x1024x128.size a
  hwx0_2 : ∀ i : grid0.Coords, EltTy.bits .f32 = 32 ∨ (Rect.block (s := S32x1024x128) S1x1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S1024x1024, .i32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S32x1024x1024, .f32⟩
  | .hbm, ⟨14, _⟩ => ⟨S32x1024x1024, .f32⟩
  | .hbm, ⟨15, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  dot_S32x1024x1024_S32x1024x128_S32x1024x128_2_1_1_2_0_0_wf : DotDims.WF S32x1024x1024 S32x1024x128 S32x1024x128 [2] [1] [1] [2] [0] [0]

variable [Facts₀]

def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.LibRowMask.lean ====
/-
  The mathematics that joins the two programs, with no program in sight.

  A row of an adjacency matrix `a` is contracted against a column `b` of features with the diagonal entry left out.
  One side multiplies the row by the mask `1 - δ` first and then sums; the other sums the whole row and takes the
  diagonal term `a r * b r` away afterwards. On finite entries these agree (`masked_row_sum`): the sum of real
  numbers may be split, and a real number may be cancelled — neither is true of an infinite entry, which is why the
  statement asks every entry to be a real.

  The diagonal entry itself is picked out of a row by the indicator of its column (`sum_pick`), which needs no
  finiteness: a product with `0` is `0` and with `1` is the factor on all of the extended reals.

  The indicators arrive as machine words: two coordinates written as 32-bit integers, compared for equality, the
  one-bit answer converted to a float. For coordinates below `2 ^ 32` that is `1` where they agree and `0`
  elsewhere (`eye_signed`, `eye_unsigned`), and the float word `0x3F800000` is `1` (`one_word`).
-/
import Idealize.ShloMosaic.PureOps.Ideal
import Idealize.ShloMosaic.PureOps.IdealRules
import Mathlib.Algebra.BigOperators.Fin
import Mathlib.Algebra.BigOperators.Ring.Finset
import Mathlib.Tactic.Ring

noncomputable section

namespace Cert.LibRowMask

open Idealize.ShloMosaic
open scoped BigOperators

/-! ### Sums of reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is a real. -/
theorem exists_real {ι : Type*} (a : ι → EReal) (ha : ∀ k, a k ≠ ⊤ ∧ a k ≠ ⊥) :
    ∃ a' : ι → ℝ, a = fun k => (a' k : EReal) :=
  ⟨fun k => (a k).toReal, funext fun k => (EReal.coe_toReal (ha k).1 (ha k).2).symm⟩

/-! ### The diagonal entry of a row -/

/-- A row weighted by the indicator of column `q` sums to its entry in column `q`, whatever the entries are. -/
theorem sum_pick {n : ℕ} (x : Fin n → EReal) (q : Fin n) :
    ∑ c : Fin n, x c * (if q.val = c.val then (1 : EReal) else 0) = x q := by
  rw [Finset.sum_eq_single q]
  · rw [if_pos rfl, mul_one]
  · intro c _ hc
    rw [if_neg (fun h => hc (Fin.ext h.symm)), mul_zero]
  · intro h; exact absurd (Finset.mem_univ q) h

/-! ### Masking before the sum is subtracting after it -/

/-- Over the reals: the row with its `r`-th term masked out sums to the whole row less that term. -/
theorem masked_row_real {n : ℕ} (a b : Fin n → ℝ) (r : Fin n) :
    ∑ k : Fin n, a k * (1 - (if r.val = k.val then (1 : ℝ) else 0)) * b k = (∑ k : Fin n, a k * b k) - a r * b r := by
  have h : ∀ k : Fin n, a k * (1 - (if r.val = k.val then (1 : ℝ) else 0)) * b k
      = a k * b k - (if r = k then a k * b k else 0) := by
    intro k
    by_cases hk : r = k
    · rw [if_pos (congrArg Fin.val hk), if_pos hk]; ring
    · rw [if_neg (fun e => hk (Fin.ext e)), if_neg hk]; ring
  simp only [h, Finset.sum_sub_distrib, Finset.sum_ite_eq, Finset.mem_univ, if_true]

/-- One masked term, on real entries, is the inclusion of the real masked term. -/
theorem masked_term (x y : ℝ) (p : Prop) [Decidable p] :
    ((x : EReal) * ((1 : EReal) - (if p then (1 : EReal) else 0))) * (y : EReal)
      = ((x * (1 - (if p then (1 : ℝ) else 0)) * y : ℝ) : EReal) := by
  by_cases hp : p
  · rw [if_pos hp, if_pos hp]
    have e : ((1 : EReal) - 1) = 0 := by rw [← EReal.coe_one, ← EReal.coe_sub, sub_self, EReal.coe_zero]
    rw [e, mul_zero, zero_mul, sub_self, mul_zero, zero_mul, EReal.coe_zero]
  · rw [if_neg hp, if_neg hp, sub_zero, sub_zero, mul_one, mul_one, EReal.coe_mul]

/-- On finite entries: the row masked by `1 - δ` and then contracted is the whole contraction less the diagonal
    term. -/
theorem masked_row_sum {n : ℕ} (a b : Fin n → EReal) (ha : ∀ k, a k ≠ ⊤ ∧ a k ≠ ⊥) (hb : ∀ k, b k ≠ ⊤ ∧ b k ≠ ⊥)
    (r : Fin n) :
    ∑ k : Fin n, (a k * ((1 : EReal) - (if r.val = k.val then (1 : EReal) else 0))) * b k
      = (∑ k : Fin n, a k * b k) - a r * b r := by
  obtain ⟨a', rfl⟩ := exists_real a ha
  obtain ⟨b', rfl⟩ := exists_real b hb
  simp only [masked_term, ← EReal.coe_mul]
  rw [← coe_sum, ← coe_sum, ← EReal.coe_sub, masked_row_real]

/-! ### The indicators as machine words -/

/-- Two naturals below `2 ^ 32`, written as 32-bit words, are equal words exactly when they are equal. -/
theorem word_beq (a b : ℕ) (ha : a < 2 ^ 32) (hb : b < 2 ^ 32) :
    (BitVec.ofNat 32 a == BitVec.ofNat 32 b) = decide (a = b) := by
  by_cases h : a = b
  · subst h; simp
  · rw [decide_eq_false h]
    have hne : BitVec.ofNat 32 a ≠ BitVec.ofNat 32 b := fun e => h (by
      have e' := congrArg BitVec.toNat e
      rw [BitVec.toNat_ofNat, BitVec.toNat_ofNat, Nat.mod_eq_of_lt ha, Nat.mod_eq_of_lt hb] at e'
      exact e')
    exact beq_eq_false_iff_ne.mpr hne

/-- The equality bit of two small coordinates, widened to 32 bits and converted as a SIGNED integer, is the indicator. -/
theorem eye_signed (a b : ℕ) (ha : a < 2 ^ 32) (hb : b < 2 ^ 32) :
    FloatOps.sitofp (F := Ideal) .f32 ((IntOp.cmpi .eq (BitVec.ofNat 32 a) (BitVec.ofNat 32 b)).setWidth 32)
      = if a = b then (1 : EReal) else 0 := by
  show ((((BitVec.ofBool (BitVec.ofNat 32 a == BitVec.ofNat 32 b)).setWidth 32).toInt : ℝ) : EReal) = _
  rw [word_beq a b ha hb]
  by_cases h : a = b
  · rw [decide_eq_true h, if_pos h]
    have e : ((BitVec.ofBool true).setWidth 32).toInt = 1 := by decide
    rw [e, Int.cast_one, EReal.coe_one]
  · rw [decide_eq_false h, if_neg h]
    have e : ((BitVec.ofBool false).setWidth 32).toInt = 0 := by decide
    rw [e, Int.cast_zero, EReal.coe_zero]

/-- The equality bit of two small coordinates converted as an UNSIGNED integer is the indicator. -/
theorem eye_unsigned (a b : ℕ) (ha : a < 2 ^ 32) (hb : b < 2 ^ 32) :
    FloatOps.uitofp (F := Ideal) .f32 (IntOp.cmpi .eq (BitVec.ofNat 32 a) (BitVec.ofNat 32 b))
      = if a = b then (1 : EReal) else 0 := by
  show (((BitVec.ofBool (BitVec.ofNat 32 a == BitVec.ofNat 32 b)).toNat : ℝ) : EReal) = _
  rw [word_beq a b ha hb]
  by_cases h : a = b
  · rw [decide_eq_true h, if_pos h]
    have e : (BitVec.ofBool true).toNat = 1 := by decide
    rw [e, Nat.cast_one, EReal.coe_one]
  · rw [decide_eq_false h, if_neg h]
    have e : (BitVec.ofBool false).toNat = 0 := by decide
    rw [e, Nat.cast_zero, EReal.coe_zero]

/-- The binary32 word `0x3F800000` is the number one. -/
theorem one_word : Ideal.ofBits .f32 0x3F800000#32 = 1 := IdealRules.sign_bit.ideal_onePat .f32

end Cert.LibRowMask

end
-- ==== Proof.Chunk.lean ====
/-
  One 128-row chunk of the body, read at an index, over the extended reals.

  The body loads a batch's adjacency slab `X0` (1 × 1024 × 1024) and feature slab `X1` (1 × 1024 × 128), forms the
  full product `X0 · X1` once, and then, for each of the eight chunks of 128 rows starting at row `o`, stores

      (X0 · X1)[o + p, f]  -  d[p] * X1[o + p, f],      d[p] = Σ_c X0[o + p, o + c] * eye[p, c],

  where `eye` is the 128 × 128 identity built from two iotas. Changes of float format are the identity here.
  Read at an index: the product is the sum over the contraction index (`matmul_at`); `eye` is the indicator of the
  diagonal (`eye_at`); so `d[p]` is the diagonal entry `X0[o + p, o + p]` (`diag_at`, the indicator picking one
  term of the lane sum); and the stored value at row `o + p`, column `f` is `rowVal X0 X1 (o + p) f` — the whole
  row contracted against column `f`, less the diagonal term (`chunk_at`). The offset `o` is a variable: the eight
  stores of the body are this one statement at `o = 0, 128, …, 896`.
-/
import proofs.«104214_j20761871909282_2_alg».proof.Proof.Gen.KernelIdeal.Skeleton
import proofs.«104214_j20761871909282_2_alg».proof.Proof.LibRowMask
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx
open scoped BigOperators

/-- Row `r` of the adjacency slab contracted against column `f` of the feature slab, less the diagonal term:
    `Σ_k X0[r, k] * X1[k, f]  -  X0[r, r] * X1[r, f]`. -/
def rowVal (X0 : S1x1024x1024.Idx → EReal) (X1 : S1x1024x128.Idx → EReal) (r : Fin 1024) (f : Fin 128) : EReal :=
  (∑ k : Fin 1024, X0 (ix3 (0 : Fin 1) r k) * X1 (ix3 (0 : Fin 1) k f))
    - X0 (ix3 (0 : Fin 1) r r) * X1 (ix3 (0 : Fin 1) r f)

/-- The adjacency slab as the matrix the body multiplies, at row `r`, column `k`. -/
theorem adj_at (X0 : Vec Ideal S1x1024x1024 .f32) (j : S1024x1024.Idx) (r k : Fin 1024)
    (h0 : (j 0).val = r.val) (h1 : (j 1).val = k.val) :
    (truncf .bf16 (shapeCast S1024x1024 X0 shapeCasts_S1x1024x1024_S1024x1024) bitsLt_bf16_f32 : FVec Ideal S1024x1024 .bf16) j
      = X0 (ix3 (0 : Fin 1) r k) := by
  show (shapeCast S1024x1024 X0 shapeCasts_S1x1024x1024_S1024x1024) j = _
  refine shapeCast_apply X0 _ j (ix3 (0 : Fin 1) r k) ?_
  rw [Shape.rowMajor_val_three, Shape.rowMajor_val_two]
  show ((0 : Nat) * 1024 + r.val) * 1024 + k.val = (j 0).val * 1024 + (j 1).val
  rw [h0, h1]; omega

/-- The feature slab as the matrix the body multiplies, at row `k`, column `f`. -/
theorem feat_at (X1 : Vec Ideal S1x1024x128 .f32) (j : S1024x128.Idx) (k : Fin 1024) (f : Fin 128)
    (h0 : (j 0).val = k.val) (h1 : (j 1).val = f.val) :
    (truncf .bf16 (shapeCast S1024x128 X1 shapeCasts_S1x1024x128_S1024x128) bitsLt_bf16_f32 : FVec Ideal S1024x128 .bf16) j
      = X1 (ix3 (0 : Fin 1) k f) := by
  show (shapeCast S1024x128 X1 shapeCasts_S1x1024x128_S1024x128) j = _
  refine shapeCast_apply X1 _ j (ix3 (0 : Fin 1) k f) ?_
  rw [Shape.rowMajor_val_three, Shape.rowMajor_val_two]
  show ((0 : Nat) * 1024 + k.val) * 128 + f.val = (j 0).val * 128 + (j 1).val
  rw [h0, h1]; omega

/-- The full product at row `r`, column `f`: the sum over the contraction index of the two slabs' entries. -/
theorem matmul_at (X0 : Vec Ideal S1x1024x1024 .f32) (X1 : Vec Ideal S1x1024x128 .f32) (r : Fin 1024) (f : Fin 128) :
    k0_pay6 (F := Ideal) X0 X1 (ix2 r f) = ∑ k : Fin 1024, X0 (ix3 (0 : Fin 1) r k) * X1 (ix3 (0 : Fin 1) k f) := by
  show FloatOps.matmul dot_S1024x1024_S1024x128_S1024x128_1_0_0_1_n_n none
      (truncf .bf16 (shapeCast S1024x1024 X0 shapeCasts_S1x1024x1024_S1024x1024) bitsLt_bf16_f32 : FVec Ideal S1024x1024 .bf16)
      (truncf .bf16 (shapeCast S1024x128 X1 shapeCasts_S1x1024x128_S1024x128) bitsLt_bf16_f32 : FVec Ideal S1024x128 .bf16)
      (constant S1024x128 .f32 0x00000000#32) (ix2 r f) = _
  rw [Ideal.matmul_constant_zero_apply,
    ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have l0 : (dot_S1024x1024_S1024x128_S1024x128_1_0_0_1_n_n.lhsIdx (ix2 r f)
      ((contrEquiv1 dot_S1024x1024_S1024x128_S1024x128_1_0_0_1_n_n 1024 rfl rfl).symm k) 0).val = r.val := by
    unfold DotDims.lhsIdx
    rw [dif_neg (show ¬(0 : Fin S1024x1024.rank) ∈ dot_S1024x1024_S1024x128_S1024x128_1_0_0_1_n_n.lhsBatch by decide),
      dif_pos (show (0 : Fin S1024x1024.rank) ∈ dot_S1024x1024_S1024x128_S1024x128_1_0_0_1_n_n.lhsNonContracting by decide)]
    rfl
  have l1 : (dot_S1024x1024_S1024x128_S1024x128_1_0_0_1_n_n.lhsIdx (ix2 r f)
      ((contrEquiv1 dot_S1024x1024_S1024x128_S1024x128_1_0_0_1_n_n 1024 rfl rfl).symm k) 1).val = k.val :=
    (dot_S1024x1024_S1024x128_S1024x128_1_0_0_1_n_n.lhsIdx_val_of_single rfl _ _).trans hk
  have r0 : (dot_S1024x1024_S1024x128_S1024x128_1_0_0_1_n_n.rhsIdx (ix2 r f)
      ((contrEquiv1 dot_S1024x1024_S1024x128_S1024x128_1_0_0_1_n_n 1024 rfl rfl).symm k) 0).val = k.val :=
    (dot_S1024x1024_S1024x128_S1024x128_1_0_0_1_n_n.rhsIdx_val_of_single rfl _ _).trans hk
  have r1 : (dot_S1024x1024_S1024x128_S1024x128_1_0_0_1_n_n.rhsIdx (ix2 r f)
      ((contrEquiv1 dot_S1024x1024_S1024x128_S1024x128_1_0_0_1_n_n 1024 rfl rfl).symm k) 1).val = f.val := by
    unfold DotDims.rhsIdx
    rw [dif_neg (show ¬(1 : Fin S1024x128.rank) ∈ dot_S1024x1024_S1024x128_S1024x128_1_0_0_1_n_n.rhsBatch by decide),
      dif_pos (show (1 : Fin S1024x128.rank) ∈ dot_S1024x1024_S1024x128_S1024x128_1_0_0_1_n_n.rhsNonContracting by decide)]
    rfl
  rw [adj_at X0 _ r k l0 l1, feat_at X1 _ k f r0 r1]

/-- The 128 × 128 identity the body builds from two iotas: one on the diagonal, zero off it. -/
theorem eye_at (q c : Fin 128) :
    k0_pay7 (F := Ideal) (ix2 q c) = if q.val = c.val then (1 : EReal) else 0 := by
  show FloatOps.sitofp (F := Ideal) .f32
      ((IntOp.cmpi .eq (BitVec.ofNat 32 (0 * 128 + q.val)) (BitVec.ofNat 32 (0 * 128 + c.val))).setWidth 32) = _
  rw [Nat.zero_mul, Nat.zero_add, Nat.zero_add]
  exact LibRowMask.eye_signed q.val c.val (by have := q.isLt; omega) (by have := c.isLt; omega)

/-- A chunk's diagonal: the lane sum of the chunk's 128 × 128 diagonal block against the identity picks, in row `q`, the
    one entry on the diagonal — the adjacency slab at row and column `o + q`. -/
theorem diag_at (o : Nat) (ho : o + 128 ≤ 1024) (hs : S1024x1024.Slices ![o, o] S128x128)
    (X0 : Vec Ideal S1x1024x1024 .f32) (q : Fin 128) :
    multiReduction (F := Ideal) .add [1] S128
        (mulf (extf .f32 (extractStridedSlice S128x128 ![o, o]
            (truncf .bf16 (shapeCast S1024x1024 X0 shapeCasts_S1x1024x1024_S1024x1024) bitsLt_bf16_f32 : FVec Ideal S1024x1024 .bf16) hs)
              bitsLt_bf16_f32)
          (k0_pay7 (F := Ideal)))
        0x00000000#32 reduces_S128x128_S128 (.inl rfl) rfl (ix1 q)
      = X0 (ix3 (0 : Fin 1) ⟨o + q.val, by have := q.isLt; omega⟩ ⟨o + q.val, by have := q.isLt; omega⟩) := by
  refine (Ideal.multiReduction_add_single _ _ _ _ _ _).trans ?_
  show ∑ k : Fin 128, _ = _
  refine (Finset.sum_congr rfl fun k _ => ?_).trans
    (LibRowMask.sum_pick (fun c : Fin 128 => X0 (ix3 (0 : Fin 1) ⟨o + q.val, by have := q.isLt; omega⟩ ⟨o + c.val, by have := c.isLt; omega⟩)) q)
  have hl : reduces_S128x128_S128.lift (ix1 q) k = ix2 q k := by
    funext a; apply Fin.ext
    match a with
    | ⟨0, _⟩ => rfl
    | ⟨1, _⟩ => rfl
  rw [mulf_apply, hl, eye_at q k]
  refine congrArg (· * _) ?_
  show (extractStridedSlice S128x128 ![o, o]
      (truncf .bf16 (shapeCast S1024x1024 X0 shapeCasts_S1x1024x1024_S1024x1024) bitsLt_bf16_f32 : FVec Ideal S1024x1024 .bf16) hs) (ix2 q k) = _
  refine (extractStridedSlice_apply ![o, o] _ hs (ix2 q k)
    (ix2 (⟨o + q.val, by have := q.isLt; omega⟩ : Fin 1024) (⟨o + k.val, by have := k.isLt; omega⟩ : Fin 1024)) ?_).trans
    (adj_at X0 _ _ _ rfl rfl)
  intro a
  match a with
  | ⟨0, _⟩ => rfl
  | ⟨1, _⟩ => rfl

/-- THE CHUNK: what the body stores for the 128 rows from `o` on, at local row `p` and column `f`, is the row
    `o + p` of the adjacency slab contracted against column `f` of the feature slab, less the diagonal term. -/
theorem chunk_at (o : Nat) (ho : o + 128 ≤ 1024) (hs1 : S1024x1024.Slices ![o, o] S128x128)
    (hs2 : S1024x128.Slices ![o, 0] S128x128)
    (X0 : Vec Ideal S1x1024x1024 .f32) (X1 : Vec Ideal S1x1024x128 .f32) (a : Fin 1) (p f : Fin 128) :
    (shapeCast S1x128x128
        (subf (extractStridedSlice S128x128 ![o, 0] (k0_pay6 (F := Ideal) X0 X1) hs2)
          (mulf
            (broadcastTo S128x128
              (shapeCast S128x1
                (multiReduction (F := Ideal) .add [1] S128
                  (mulf (extf .f32 (extractStridedSlice S128x128 ![o, o]
                      (truncf .bf16 (shapeCast S1024x1024 X0 shapeCasts_S1x1024x1024_S1024x1024) bitsLt_bf16_f32 : FVec Ideal S1024x1024 .bf16) hs1)
                        bitsLt_bf16_f32)
                    (k0_pay7 (F := Ideal)))
                  0x00000000#32 reduces_S128x128_S128 (.inl rfl) rfl)
                shapeCasts_S128_S128x1)
              broadcasts_S128x1_S128x128)
            (extf .f32 (extractStridedSlice S128x128 ![o, 0]
                (truncf .bf16 (shapeCast S1024x128 X1 shapeCasts_S1x1024x128_S1024x128) bitsLt_bf16_f32 : FVec Ideal S1024x128 .bf16) hs2)
              bitsLt_bf16_f32)))
        shapeCasts_S128x128_S1x128x128 : FVec Ideal S1x128x128 .f32) (ix3 a p f)
      = rowVal X0 X1 ⟨o + p.val, by have := p.isLt; omega⟩ f := by
  have ha : a.val = 0 := by have := a.isLt; omega
  refine (shapeCast_apply _ _ (ix3 a p f) (ix2 p f) ?_).trans ?_
  · rw [Shape.rowMajor_val_two, Shape.rowMajor_val_three]
    show p.val * 128 + f.val = (a.val * 128 + p.val) * 128 + f.val
    rw [ha]; omega
  rw [subf_apply, mulf_apply]
  unfold rowVal
  refine congrArg₂ (· - ·) ?_ (congrArg₂ (· * ·) ?_ ?_)
  · refine (extractStridedSlice_apply ![o, 0] _ hs2 (ix2 p f)
      (ix2 (⟨o + p.val, by have := p.isLt; omega⟩ : Fin 1024) f) ?_).trans (matmul_at X0 X1 _ f)
    intro b
    match b with
    | ⟨0, _⟩ => rfl
    | ⟨1, _⟩ => exact (Nat.zero_add _).symm
  · refine (broadcastTo_apply _ _ (ix2 p f) (ix2 p (0 : Fin 1)) ?_).trans ?_
    · intro b
      match b with
      | ⟨0, _⟩ => show p.val = if (128 : Nat) = 1 then 0 else p.val; rw [if_neg (by decide)]
      | ⟨1, _⟩ => show (0 : Nat) = if (1 : Nat) = 1 then 0 else f.val; rw [if_pos rfl]
    refine (shapeCast_apply _ _ (ix2 p (0 : Fin 1)) (ix1 p) ?_).trans (diag_at o ho hs1 X0 p)
    rw [Shape.rowMajor_val_one, Shape.rowMajor_val_two]
    show p.val = p.val * 1 + 0
    omega
  · show (extractStridedSlice S128x128 ![o, 0]
        (truncf .bf16 (shapeCast S1024x128 X1 shapeCasts_S1x1024x128_S1024x128) bitsLt_bf16_f32 : FVec Ideal S1024x128 .bf16) hs2) (ix2 p f) = _
    refine (extractStridedSlice_apply ![o, 0] _ hs2 (ix2 p f)
      (ix2 (⟨o + p.val, by have := p.isLt; omega⟩ : Fin 1024) f) ?_).trans (feat_at X1 _ _ f rfl rfl)
    intro b
    match b with
    | ⟨0, _⟩ => rfl
    | ⟨1, _⟩ => exact (Nat.zero_add _).symm

end Cert.KernelIdeal.Chunk

end
-- ==== Proof.Block.lean ====
/-
  What one grid point leaves in the output's block.

  The body writes the 1 × 1024 × 128 output block through eight stores, one per chunk of 128 rows; the frame records
  the block afterwards as those eight pieces laid over one another. Each piece is the same function of the block index
  — at row `r`, column `f` the whole row `r` of the point's adjacency slab contracted against column `f` of its
  feature slab, less the diagonal term (`Chunk.chunk_at`, at the piece's row offset) — and the pieces tile the block, so
  the block IS that function of the two slabs (`out_eq`).
-/
import proofs.«104214_j20761871909282_2_alg».proof.Proof.Gen.KernelIdeal.Frame
import proofs.«104214_j20761871909282_2_alg».proof.Proof.Chunk

noncomputable section

namespace Cert.KernelIdeal.Block

open Cert.KernelIdeal Cert.KernelIdeal.Gen Idealize.ShloMosaic Idealize.ShloMosaic.ValueIdx

/-- The output block as one function of the point's two input slabs: at block index `(0, r, f)`,
    `Σ_k X0[r, k] * X1[k, f]  -  X0[r, r] * X1[r, f]`. -/
def rowsOf (X0 : S1x1024x1024.Idx → EReal) (X1 : S1x1024x128.Idx → EReal) : S1x1024x128.Idx → EReal := fun y =>
  Chunk.rowVal X0 X1 ⟨(y 1).val, (y 1).isLt⟩ ⟨(y 2).val, (y 2).isLt⟩

theorem zero3 : (![0, 0, 0] : Fin 3 → Nat) = fun _ => 0 := funext fun a => by fin_cases a <;> rfl

/-- One store: the chunk from row `o`, at the store's own index `x`, is `rowsOf` at the block index under `x`
    (row `o +` the local row, the same column). -/
theorem piece_at (o : Nat) (ho : o + 128 ≤ 1024) (hs1 : S1024x1024.Slices ![o, o] S128x128)
    (hs2 : S1024x128.Slices ![o, 0] S128x128)
    (inb : ∀ a, (![0, o, 0] : Fin 3 → Nat) a + S1x128x128.size a ≤ S1x1024x128.size a)
    (X0 : Vec Ideal S1x1024x1024 .f32) (X1 : Vec Ideal S1x1024x128 .f32) (x : S1x128x128.Idx) :
    (shapeCast S1x128x128
        (subf (extractStridedSlice S128x128 ![o, 0] (k0_pay6 (F := Ideal) X0 X1) hs2)
          (mulf
            (broadcastTo S128x128
              (shapeCast S128x1
                (multiReduction (F := Ideal) .add [1] S128
                  (mulf (extf .f32 (extractStridedSlice S128x128 ![o, o]
                      (truncf .bf16 (shapeCast S1024x1024 X0 shapeCasts_S1x1024x1024_S1024x1024) bitsLt_bf16_f32 : FVec Ideal S1024x1024 .bf16) hs1)
                        bitsLt_bf16_f32)
                    (k0_pay7 (F := Ideal)))
                  0x00000000#32 reduces_S128x128_S128 (.inl rfl) rfl)
                shapeCasts_S128_S128x1)
              broadcasts_S128x1_S128x128)
            (extf .f32 (extractStridedSlice S128x128 ![o, 0]
                (truncf .bf16 (shapeCast S1024x128 X1 shapeCasts_S1x1024x128_S1024x128) bitsLt_bf16_f32 : FVec Ideal S1024x128 .bf16) hs2)
              bitsLt_bf16_f32)))
        shapeCasts_S128x128_S1x128x128 : FVec Ideal S1x128x128 .f32) x
      = rowsOf X0 X1 ((Rect.unit (s := S1x1024x128) ![0, o, 0] S1x128x128.size inb).emb x) := by
  obtain ⟨a, p, f, rfl⟩ : ∃ (a : Fin 1) (p f : Fin 128), x = ix3 a p f := ⟨x 0, x 1, x 2, eq_ix3 x⟩
  refine (Chunk.chunk_at o ho hs1 hs2 X0 X1 a p f).trans ?_
  unfold rowsOf
  refine congrArg₂ (Chunk.rowVal X0 X1) (Fin.ext ?_) (Fin.ext ?_)
  · show o + p.val = o + 1 * p.val
    omega
  · show f.val = 0 + 1 * f.val
    omega

/-- THE BLOCK a point leaves: the eight stores, laid over one another, are `rowsOf` of the point's two slabs. -/
theorem out_eq (x0 : Vec Ideal S1x1024x1024 .f32) (x1 : Vec Ideal S1x1024x128 .f32) :
    out0_2 (F := Ideal) x0 x1 = rowsOf x0 x1 := by
  funext y
  unfold out0_2
  simp only [View.ld_unit_zero (S := S1x1024x1024) zero3, View.ld_unit_zero (S := S1x1024x128) zero3]
  refine View.canon_apply_of_pieces (Val := Elt Ideal) (e := .f32) (rowsOf x0 x1) _ ?_ y (cover0_2 _ _ _ _ _ _ _ _ y)
  intro pc hpc
  rcases List.mem_cons.mp hpc with rfl | hpc
  · exact fun x => piece_at 896 (by omega) slices_S1024x1024_o896_896_S128x128 slices_S1024x128_o896_0_S128x128
      inb_S1x1024x128_S1x128x128_0_896_0 x0 x1 x
  rcases List.mem_cons.mp hpc with rfl | hpc
  · exact fun x => piece_at 768 (by omega) slices_S1024x1024_o768_768_S128x128 slices_S1024x128_o768_0_S128x128
      inb_S1x1024x128_S1x128x128_0_768_0 x0 x1 x
  rcases List.mem_cons.mp hpc with rfl | hpc
  · exact fun x => piece_at 640 (by omega) slices_S1024x1024_o640_640_S128x128 slices_S1024x128_o640_0_S128x128
      inb_S1x1024x128_S1x128x128_0_640_0 x0 x1 x
  rcases List.mem_cons.mp hpc with rfl | hpc
  · exact fun x => piece_at 512 (by omega) slices_S1024x1024_o512_512_S128x128 slices_S1024x128_o512_0_S128x128
      inb_S1x1024x128_S1x128x128_0_512_0 x0 x1 x
  rcases List.mem_cons.mp hpc with rfl | hpc
  · exact fun x => piece_at 384 (by omega) slices_S1024x1024_o384_384_S128x128 slices_S1024x128_o384_0_S128x128
      inb_S1x1024x128_S1x128x128_0_384_0 x0 x1 x
  rcases List.mem_cons.mp hpc with rfl | hpc
  · exact fun x => piece_at 256 (by omega) slices_S1024x1024_o256_256_S128x128 slices_S1024x128_o256_0_S128x128
      inb_S1x1024x128_S1x128x128_0_256_0 x0 x1 x
  rcases List.mem_cons.mp hpc with rfl | hpc
  · exact fun x => piece_at 128 (by omega) slices_S1024x1024_o128_128_S128x128 slices_S1024x128_o128_0_S128x128
      inb_S1x1024x128_S1x128x128_0_128_0 x0 x1 x
  rcases List.mem_cons.mp hpc with rfl | hpc
  · exact fun x => piece_at 0 (by omega) slices_S1024x1024_o0_0_S128x128 slices_S1024x128_o0_0_S128x128
      inb_S1x1024x128_S1x128x128_0_0_0 x0 x1 x
  nomatch hpc

end Cert.KernelIdeal.Block

end
-- ==== Proof.Spec.lean ====
/-
  The result both programs compute, as one function of the two argument arrays, with no program in sight.

  `A` is a batch of 32 adjacency matrices (1024 × 1024), `M` a batch of 32 feature matrices (1024 × 128). Every
  node `r` gathers the features of all nodes `k` weighted by `A[b, r, k]`, itself excluded:

      agg A M (b, r, f)  =  Σ_k A[b, r, k] * M[b, k, f]  -  A[b, r, r] * M[b, r, f].

  It is written in the form "everything, less the diagonal term"; on finite entries that is the sum over `k ≠ r`.
-/
import Idealize.ShloMosaic.PureOps.Ideal
import Idealize.ShloMosaic.Lib.ValueIdx

noncomputable section

namespace Cert.Spec

open Idealize.ShloMosaic Idealize.ShloMosaic.ValueIdx
open scoped BigOperators

/-- The shape of the adjacency batch. -/
abbrev Adj : Shape := ⟨3, ![32, 1024, 1024]⟩
/-- The shape of the feature batch, and of the result. -/
abbrev Feat : Shape := ⟨3, ![32, 1024, 128]⟩

/-- The aggregate at batch `b`, node `r`, feature `f`. -/
def aggAt (A : Adj.Idx → EReal) (M : Feat.Idx → EReal) (b : Fin 32) (r : Fin 1024) (f : Fin 128) : EReal :=
  (∑ k : Fin 1024, A (ix3 b r k) * M (ix3 b k f)) - A (ix3 b r r) * M (ix3 b r f)

/-- The aggregate as an array. -/
def agg (A : Adj.Idx → EReal) (M : Feat.Idx → EReal) : Feat.Idx → EReal := fun i =>
  aggAt A M ⟨(i 0).val, (i 0).isLt⟩ ⟨(i 1).val, (i 1).isLt⟩ ⟨(i 2).val, (i 2).isLt⟩

end Cert.Spec

end
-- ==== Proof.Whole.lean ====
/-
  From blocks to the whole array: what the kernel's run leaves in its result.

  The grid has one point per batch entry `t`. At point `t` each window's block is slab `t` of its array (the index maps
  send `t` to block `(t, 0, 0)`, decided once over the 32 points: `idx_facts`), so the two input blocks are
  `A[t, ·, ·]` and `M[t, ·, ·]` (`adj_block`, `feat_block`) and what the point writes back is slab `t` of the aggregate
  `Spec.agg A M` (`flushed_eq`, from the block's closed form `Block.out_eq`). Every index `(b, r, f)` of the result lies
  in point `b`'s block (`cover`), so after the run the result array is `Spec.agg A M` (`final`, `run`). No entry needs
  to be finite for any of this.
-/
import proofs.«104214_j20761871909282_2_alg».proof.Proof.Block
import proofs.«104214_j20761871909282_2_alg».proof.Proof.Spec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every window's block at point `t` is block `(t, 0, 0)` of its array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The adjacency window's block at point `t` is slab `t` of the adjacency argument. -/
theorem adj_block (c : Dev nD) (t : Fin cfg0.N) (y : S1x1024x1024.Idx) (i : S32x1024x1024.Idx)
    (h0 : (i 0).val = t.val) (h1 : (i 1).val = (y 1).val) (h2 : (i 2).val = (y 2).val) :
    (iblk m c 0 t : Vec Ideal S1x1024x1024 .f32) y = V m c main_arg1 i := by
  obtain ⟨e0, e1, e2, -⟩ := idx_facts t
  have hy0 : (y 0).val < 1 := (y 0).isLt
  unfold iblk
  rw [View.read_apply]
  show V m c main_arg1 _ = V m c main_arg1 i
  refine congrArg (V m c main_arg1) ?_
  funext a; apply Fin.ext
  match a with
  | ⟨0, _⟩ => show win0_0.index t (0 : Fin 3) * 1 + 1 * (y 0).val = (i 0).val; rw [e0, h0]; omega
  | ⟨1, _⟩ => show win0_0.index t (1 : Fin 3) * 1024 + 1 * (y 1).val = (i 1).val; rw [e1, h1]; omega
  | ⟨2, _⟩ => show win0_0.index t (2 : Fin 3) * 1024 + 1 * (y 2).val = (i 2).val; rw [e2, h2]; omega

/-- The feature window's block at point `t` is slab `t` of the feature argument. -/
theorem feat_block (c : Dev nD) (t : Fin cfg0.N) (y : S1x1024x128.Idx) (i : S32x1024x128.Idx)
    (h0 : (i 0).val = t.val) (h1 : (i 1).val = (y 1).val) (h2 : (i 2).val = (y 2).val) :
    (iblk m c 1 t : Vec Ideal S1x1024x128 .f32) y = V m c main_arg0 i := by
  obtain ⟨-, -, -, e0, e1, e2, -⟩ := idx_facts t
  have hy0 : (y 0).val < 1 := (y 0).isLt
  unfold iblk
  rw [View.read_apply]
  show V m c main_arg0 _ = V m c main_arg0 i
  refine congrArg (V m c main_arg0) ?_
  funext a; apply Fin.ext
  match a with
  | ⟨0, _⟩ => show win0_1.index t (0 : Fin 3) * 1 + 1 * (y 0).val = (i 0).val; rw [e0, h0]; omega
  | ⟨1, _⟩ => show win0_1.index t (1 : Fin 3) * 1024 + 1 * (y 1).val = (i 1).val; rw [e1, h1]; omega
  | ⟨2, _⟩ => show win0_1.index t (2 : Fin 3) * 128 + 1 * (y 2).val = (i 2).val; rw [e2, h2]; omega

/-- WHAT POINT `t` WRITES BACK is slab `t` of the aggregate of the two argument arrays. -/
theorem flushed_eq (c : Dev nD) (t : Fin cfg0.N) :
    (dats m 0 c).flushed 2 t
      = ((cfg0.win 2).blk t).view.read (Elt Ideal) (Spec.agg (V m c main_arg1) (V m c main_arg0)) := by
  show (cfg0.win 2).cut (grid0.coords t) ((dats m 0 c).after 2 t) = _
  rw [after0_2, Block.out_eq]
  obtain ⟨-, -, -, -, -, -, e0, e1, e2⟩ := idx_facts t
  funext j
  have hj0 : (j 0).val < 1 := (j 0).isLt
  show Block.rowsOf (iblk m c 0 t) (iblk m c 1 t) j
    = Spec.agg (V m c main_arg1) (V m c main_arg0) (((cfg0.win 2).blk t).view.emb j)
  have E0 : ((((cfg0.win 2).blk t).view.emb j) 0).val = t.val := by
    show win0_2.index t (0 : Fin 3) * 1 + 1 * (j 0).val = t.val; rw [e0]; omega
  have E1 : ((((cfg0.win 2).blk t).view.emb j) 1).val = (j 1).val := by
    show win0_2.index t (1 : Fin 3) * 1024 + 1 * (j 1).val = (j 1).val; rw [e1]; omega
  have E2 : ((((cfg0.win 2).blk t).view.emb j) 2).val = (j 2).val := by
    show win0_2.index t (2 : Fin 3) * 128 + 1 * (j 2).val = (j 2).val; rw [e2]; omega
  unfold Block.rowsOf Chunk.rowVal Spec.agg Spec.aggAt
  refine congrArg₂ (· - ·) (Finset.sum_congr rfl fun k _ => congrArg₂ (· * ·) ?_ ?_) (congrArg₂ (· * ·) ?_ ?_)
  · exact adj_block m c t _ _ E0 E1 rfl
  · exact feat_block m c t _ _ E0 rfl E2
  · exact adj_block m c t _ _ E0 E1 E1
  · exact feat_block m c t _ _ E0 E1 E2

/-- An index of the result lies in point `t`'s block iff each coordinate is in the block's range on its axis. -/
theorem mem_blk (t : Fin cfg0.N) (i : S32x1024x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- Every index `(b, r, f)` of the result is in the block of the point `b`. -/
theorem cover (i : S32x1024x128.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 128 := (i 2).isLt
  obtain ⟨t, ht⟩ : ∃ t : Fin cfg0.N, t.val = (i 0).val :=
    ⟨⟨(i 0).val, by show (i 0).val < grid0.N; rw [N_0]; exact hi0⟩, rfl⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1024 ≤ (i 1).val ∧ (i 1).val < win0_2.index t (1 : Fin 3) * 1024 + 1024
    rw [e1]; omega
  | ⟨2, _⟩ =>
    show win0_2.index t (2 : Fin 3) * 128 ≤ (i 2).val ∧ (i 2).val < win0_2.index t (2 : Fin 3) * 128 + 128
    rw [e2]; omega

/-- THE RESULT ARRAY after the run is the aggregate of the two argument arrays. -/
theorem final (c : Dev nD) :
    (dats m 0 c).arrAt 2 cfg0.N = Spec.agg (V m c main_arg1) (V m c main_arg0) :=
  (dats m 0 c).arrAt_eq_of_cover 2 (Spec.agg (V m c main_arg1) (V m c main_arg0))
    (fun t _ => flushed_eq m c t) cover

/-- The kernel's run, read: every weakly fair execution ends with the result array at the aggregate of the argument
    arrays as launched, and the arguments unchanged. -/
theorem run : θ_run defs (onTc (τ := τ) (main (F := Ideal))) ⟨m, fun _ => 0, ρ⟩ fun r => ∀ c : Dev nD,
      r.2.mem ((c : Thread nD τ).loc main_v0)
        = Spec.agg (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final m c),
        ((h c).1 1).trans (((dats m 0 c).arrAt_in 1 rfl _).trans ((A_eq m c 1).trans (V_main_arg0 m c))),
        ((h c).1 0).trans (((dats m 0 c).arrAt_in 0 rfl _).trans ((A_eq m c 0).trans (V_main_arg1 m c)))⟩)
    (run_main m ρ)

end Cert.KernelIdeal.Whole

end
-- ==== Proof.RefSide.lean ====
/-
  The reference computes the aggregate, on finite entries.

  The reference builds the 1024 × 1024 mask `1 - eye` from two iotas, multiplies every adjacency matrix of the batch by
  it, and contracts the masked batch against the features with one batched product. Read at an index `(b, r, f)` that is

      Σ_k (A[b, r, k] * (1 - δ(r, k))) * M[b, k, f],        δ(r, k) = 1 if r = k, else 0

  (`mask_at`: the mask's entry; the generated stage lemmas supply the rest). On finite entries masking the diagonal
  term out before the sum is taking it away after the sum (`LibRowMask.masked_row_sum`), which is `Spec.agg A M`
  (`ref_eq`). Finiteness is used here and only here: with an infinite entry in the row the two forms part ways.
-/
import proofs.«104214_j20761871909282_2_alg».proof.Proof.Gen.ReferenceIdeal.Read
import proofs.«104214_j20761871909282_2_alg».proof.Proof.LibRowMask
import proofs.«104214_j20761871909282_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The broadcast mask at batch index `i`: `1 - δ` of its row and column coordinates. -/
theorem mask_at (i : S32x1024x1024.Idx) :
    val_main_v9 (F := Ideal) i = (1 : EReal) - (if (i 1).val = (i 2).val then (1 : EReal) else 0) := by
  have h1 : (i 1).val < 2 ^ 32 := by have h : (i 1).val < 1024 := (i 1).isLt; omega
  have h2 : (i 2).val < 2 ^ 32 := by have h : (i 2).val < 1024 := (i 2).isLt; omega
  rw [val_main_v9_apply, val_main_v8_apply, val_main_v7_apply, val_main_v6_apply, val_main_cst_apply,
    val_main_v5_apply, val_main_v4_apply, val_main_v3_apply, val_main_v0_apply, val_main_v2_apply,
    val_main_c_apply, val_main_v1_apply]
  show Ideal.ofBits .f32 0x3F800000#32
      - FloatOps.uitofp (F := Ideal) .f32 (IntOp.cmpi .eq (BitVec.ofNat 32 (i 1).val + 0#32) (BitVec.ofNat 32 (i 2).val)) = _
  rw [BitVec.add_zero, LibRowMask.one_word, LibRowMask.eye_unsigned _ _ h1 h2]

/-- THE REFERENCE'S RESULT, on finite argument arrays, is the aggregate. -/
theorem ref_eq (M : (⟨S32x1024x128, .f32⟩ : BufTy).Contents (Elt Ideal))
    (A : (⟨S32x1024x1024, .f32⟩ : BufTy).Contents (Elt Ideal))
    (hA : ∀ i, A i ≠ ⊤ ∧ A i ≠ ⊥) (hM : ∀ i, M i ≠ ⊤ ∧ M i ≠ ⊥) :
    val_main_v11 (F := Ideal) M A = Spec.agg A M := by
  funext i
  rw [val_main_v11_apply]
  have h : ∀ k : Fin 1024, val_main_v10 (F := Ideal) A (lidx_main_v11 i k) * M (ridx_main_v11 i k)
      = (A (lidx_main_v11 i k)
          * ((1 : EReal) - (if (⟨(i 1).val, (i 1).isLt⟩ : Fin 1024).val = k.val then (1 : EReal) else 0)))
        * M (ridx_main_v11 i k) := by
    intro k
    rw [val_main_v10_apply, mask_at]
    rfl
  refine (Finset.sum_congr rfl fun k _ => h k).trans ?_
  refine (LibRowMask.masked_row_sum (fun k : Fin 1024 => A (lidx_main_v11 i k)) (fun k : Fin 1024 => M (ridx_main_v11 i k))
    (fun k => hA _) (fun k => hM _) ⟨(i 1).val, (i 1).isLt⟩).trans ?_
  have el : ∀ k : Fin 1024, lidx_main_v11 i k
      = ix3 (⟨(i 0).val, (i 0).isLt⟩ : Fin 32) (⟨(i 1).val, (i 1).isLt⟩ : Fin 1024) k := fun k =>
    funext fun a => by
      match a with
      | ⟨0, _⟩ => rfl
      | ⟨1, _⟩ => rfl
      | ⟨2, _⟩ => rfl
  have er : ∀ k : Fin 1024, ridx_main_v11 i k
      = ix3 (⟨(i 0).val, (i 0).isLt⟩ : Fin 32) k (⟨(i 2).val, (i 2).isLt⟩ : Fin 128) := fun k =>
    funext fun a => by
      match a with
      | ⟨0, _⟩ => rfl
      | ⟨1, _⟩ => rfl
      | ⟨2, _⟩ => rfl
  unfold Spec.agg Spec.aggAt
  simp only [el, er]

end Cert.ReferenceIdeal.RefValue

end
-- ==== Proof.Finite.lean ====
/-
  What the precondition says: every entry of both argument arrays is a real number.

  The precondition is `all (|x| < +inf)` over the features, and the same over the adjacency, joined by `and`; it is given
  as the one-bit word `1`. A conjunction that is `1` has both parts `1`; an `all` that is `1` is `1` at every index;
  and an extended real whose absolute value `max x (-x)` lies strictly below `+inf` — the value of the word
  `0x7F800000` — is neither infinity (`entry_real`).
-/
import proofs.«104214_j20761871909282_2_alg».proof.Pre_finite_inputs
import proofs.«104214_j20761871909282_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

/-- The shape with no axis has one index. -/
instance : Subsingleton S_.Idx := ⟨fun a b => funext fun d => d.elim0⟩

/-- The binary32 word `0x7F800000` is `+inf`. -/
theorem inf_word : Ideal.ofBits .f32 0x7F800000#32 = ⊤ := by simp [Ideal.ofBits, Ideal.ieee]

/-- An extended real whose absolute value is strictly below `+inf` is a real. -/
theorem entry_real (x : EReal)
    (h : Ideal.cmp .olt (max x (-x)) (Ideal.ofBits .f32 0x7F800000#32) = 1#1) : x ≠ ⊤ ∧ x ≠ ⊥ := by
  rw [inf_word] at h
  induction x using EReal.rec with
  | bot => exfalso; revert h; simp [Ideal.cmp]
  | top => exfalso; revert h; simp [Ideal.cmp]
  | coe r => exact ⟨EReal.coe_ne_top r, EReal.coe_ne_bot r⟩

/-- THE PRECONDITION, READ: both argument arrays hold real numbers only. -/
theorem finite_of_pre (M : FVec Ideal S32x1024x128 .f32) (A : FVec Ideal S32x1024x1024 .f32)
    (h : Cert.Pre_finite_inputs.fn (F := Ideal) M A = fun _ => 1#1) :
    (∀ i, M i ≠ ⊤ ∧ M i ≠ ⊥) ∧ (∀ i, A i ≠ ⊤ ∧ A i ≠ ⊥) := by
  have h0 := congrFun h ValueIdx.ix0
  dsimp only [Cert.Pre_finite_inputs.fn] at h0
  obtain ⟨hM, hA⟩ := IntOp.andi_eq_one.mp h0
  refine ⟨fun i => entry_real (M i) ?_, fun i => entry_real (A i) ?_⟩
  · exact Host.reduce_andi_all _ _ _ _ _ hM i
  · exact Host.reduce_andi_all _ _ _ _ _ hA i

end Cert.Finite

end
-- ==== Proof.lean ====
/-
  Neighbour aggregation on a batch of graphs: `out[b] = (adj[b] with its diagonal zeroed) · means[b]`,
  for 32 adjacency matrices of 1024 × 1024 and 32 feature matrices of 1024 × 128.

  THE KERNEL works one batch entry per grid point. It multiplies the UNMASKED adjacency slab by the feature slab, which
  adds a spurious term `adj[r, r] * means[r, f]` into row `r`, and then removes it: for each chunk of 128 rows it reads
  the chunk's diagonal out of the chunk's 128 × 128 diagonal block (a lane sum against an identity made from two iotas),
  scales the chunk's feature rows by it and subtracts. THE REFERENCE multiplies the adjacency batch by the mask
  `1 - eye` first and contracts once. Over the extended reals, with every change of float format the identity:

      kernel     out[b, r, f] = Σ_k adj[b, r, k] * means[b, k, f]  -  adj[b, r, r] * means[b, r, f]
      reference  out[b, r, f] = Σ_k (adj[b, r, k] * (1 - δ(r, k))) * means[b, k, f]

  These agree when the entries are real numbers — a sum of reals may be split and a real cancelled — and the precondition
  says exactly that every entry is finite. (With an infinite entry in row `r` they need not agree, so the precondition is
  used, on the reference's side.)

  The parts. `Spec`: the aggregate as one function of the two arrays, in the kernel's form. `LibRowMask`: the law above over
  real entries, the indicator picking one term of a row, and the two identity masks read as indicators. `Chunk`, `Block`,
  `Whole`: the kernel's run ends with the result array at the aggregate — one chunk at an index, the eight chunks as one
  block, the 32 blocks as the array; no finiteness. `RefSide`: the reference's result is the aggregate on finite entries,
  over the reference's run and its stages read at an index. `Finite`: the precondition read as "every entry is a
  real". The three frames are the two generated frame runs and the reference's run with its result dropped; the
  idealization rewrote nothing, so there is nothing to preserve.
-/
import proofs.«104214_j20761871909282_2_alg».proof.Defs
import proofs.«104214_j20761871909282_2_alg».proof.Proof.Gen.Kernel
import proofs.«104214_j20761871909282_2_alg».proof.Proof.Gen.Kernel.Skeleton
import proofs.«104214_j20761871909282_2_alg».proof.Proof.Gen.Kernel.Launch
import proofs.«104214_j20761871909282_2_alg».proof.Proof.Gen.Kernel.Points
import proofs.«104214_j20761871909282_2_alg».proof.Proof.Gen.Kernel.Frame
import proofs.«104214_j20761871909282_2_alg».proof.Proof.Gen.KernelIdeal
import proofs.«104214_j20761871909282_2_alg».proof.Proof.Gen.KernelIdeal.Skeleton
import proofs.«104214_j20761871909282_2_alg».proof.Proof.Gen.KernelIdeal.Launch
import proofs.«104214_j20761871909282_2_alg».proof.Proof.Gen.KernelIdeal.Points
import proofs.«104214_j20761871909282_2_alg».proof.Proof.Gen.KernelIdeal.Frame
import proofs.«104214_j20761871909282_2_alg».proof.Proof.Gen.ReferenceIdeal
import proofs.«104214_j20761871909282_2_alg».proof.Proof.Gen.Pre_finite_inputs
import proofs.«104214_j20761871909282_2_alg».proof.Proof.Gen.ReferenceIdeal.Run
import proofs.«104214_j20761871909282_2_alg».proof.Proof.Gen.ReferenceIdeal.Read
import proofs.«104214_j20761871909282_2_alg».proof.Proof.Whole
import proofs.«104214_j20761871909282_2_alg».proof.Proof.RefSide
import proofs.«104214_j20761871909282_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the aggregate of the (agreeing, finite) argument arrays in their result: the kernel's run
    whatever the entries, the reference's because the entries are real. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hM, hA⟩ := Cert.Finite.finite_of_pre _ _ (hpre c)
  rw [Cert.ReferenceIdeal.Read.val_main_v11_eq, (hagree c).1, (hagree c).2]
  exact Cert.ReferenceIdeal.RefValue.ref_eq _ _ hA hM

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
